-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x448x448 : Shape := ⟨4, ![64, 1, 448, 448]⟩
abbrev S_ : Shape := ⟨0, ![]⟩

class Facts : Prop where
  bcast_S_S64x1x448x448 : S_.BroadcastsInDim S64x1x448x448 (![] : Fin 0 → Fin S64x1x448x448.rank)
  reducesTo_S64x1x448x448_S_d0_1_2_3 : S64x1x448x448.ReducesTo [0, 1, 2, 3] S_
  h_S_ : 0 < S_.numel

variable [Facts]

def fn {F : FTy → Type} [FloatOps F] (main_arg0 : FVec F S64x1x448x448 .f32) (main_arg1 : FVec F S64x1x448x448 .f32) (main_arg2 : FVec F S64x1x448x448 .f32) : IVec S_ 1 :=
  let main_v0 : FVec F S64x1x448x448 .f32 := Host.absf main_arg0
  let main_cst : FVec F S_ .f32 := constant S_ .f32 0x7F800000#32
  let main_v1 : FVec F S64x1x448x448 .f32 := broadcastInDim S64x1x448x448 ![] bcast_S_S64x1x448x448 main_cst
  let main_v2 : IVec S64x1x448x448 1 := cmpf .olt main_v0 main_v1
  let main_c : IVec S_ 1 := constantI S_ 1 1#1
  let main_v3 : IVec S_ 1 := (fun x v => Host.reduce IntOp.andi x v reducesTo_S64x1x448x448_S_d0_1_2_3 h_S_) main_v2 main_c
  let main_v4 : FVec F S64x1x448x448 .f32 := Host.absf main_arg1
  let main_cst_0 : FVec F S_ .f32 := constant S_ .f32 0x7F800000#32
  let main_v5 : FVec F S64x1x448x448 .f32 := broadcastInDim S64x1x448x448 ![] bcast_S_S64x1x448x448 main_cst_0
  let main_v6 : IVec S64x1x448x448 1 := cmpf .olt main_v4 main_v5
  let main_c_1 : IVec S_ 1 := constantI S_ 1 1#1
  let main_v7 : IVec S_ 1 := (fun x v => Host.reduce IntOp.andi x v reducesTo_S64x1x448x448_S_d0_1_2_3 h_S_) main_v6 main_c_1
  let main_v8 : IVec S_ 1 := andi main_v3 main_v7
  let main_v9 : FVec F S64x1x448x448 .f32 := Host.absf main_arg2
  let main_cst_2 : FVec F S_ .f32 := constant S_ .f32 0x7F800000#32
  let main_v10 : FVec F S64x1x448x448 .f32 := broadcastInDim S64x1x448x448 ![] bcast_S_S64x1x448x448 main_cst_2
  let main_v11 : IVec S64x1x448x448 1 := cmpf .olt main_v9 main_v10
  let main_c_3 : IVec S_ 1 := constantI S_ 1 1#1
  let main_v12 : IVec S_ 1 := (fun x v => Host.reduce IntOp.andi x v reducesTo_S64x1x448x448_S_d0_1_2_3 h_S_) main_v11 main_c_3
  let main_v13 : IVec S_ 1 := andi main_v8 main_v12
  main_v13
-- ==== Kernel.lean ====
abbrev S64x1x448x448 : Shape := ⟨4, ![64, 1, 448, 448]⟩
abbrev S100352x128 : Shape := ⟨2, ![100352, 128]⟩
abbrev S8x8x128 : Shape := ⟨3, ![8, 8, 128]⟩
abbrev S12544x128 : Shape := ⟨2, ![12544, 128]⟩
abbrev S1x8x128 : Shape := ⟨3, ![1, 8, 128]⟩
abbrev S1568x8x128 : Shape := ⟨3, ![1568, 8, 128]⟩
abbrev S8x128 : Shape := ⟨2, ![8, 128]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S64x1x448x448, .f32⟩
  | .hbm, ⟨1, _⟩ => ⟨S64x1x448x448, .f32⟩
  | .hbm, ⟨2, _⟩ => ⟨S64x1x448x448, .f32⟩
  | .hbm, ⟨3, _⟩ => ⟨S100352x128, .f32⟩
  | .hbm, ⟨4, _⟩ => ⟨S100352x128, .f32⟩
  | .hbm, ⟨5, _⟩ => ⟨S100352x128, .f32⟩
  | .hbm, ⟨6, _⟩ => ⟨S8x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S12544x128, .f32⟩
  | .local _ .vmem, ⟨1, _⟩ => ⟨S12544x128, .f32⟩
  | .local _ .vmem, ⟨2, _⟩ => ⟨S12544x128, .f32⟩
  | .local _ .vmem, ⟨3, _⟩ => ⟨S12544x128, .f32⟩
  | .local _ .vmem, ⟨4, _⟩ => ⟨S12544x128, .f32⟩
  | .local _ .vmem, ⟨5, _⟩ => ⟨S12544x128, .f32⟩
  | .local _ .vmem, ⟨6, _⟩ => ⟨S1x8x128, .f32⟩
  | .local _ .vmem, ⟨7, _⟩ => ⟨S1x8x128, .f32⟩
  | _, _ => ⟨S64x1x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x448x448_S100352x128 : S64x1x448x448.ShapeCasts S100352x128
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  shapeCasts_S12544x128_S1568x8x128 : S12544x128.ShapeCasts S1568x8x128
  reduces_S1568x8x128_S8x128 : S1568x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x8x128_S_d0_1_2 : S8x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12544x128.size a ≤ S100352x128.size a
  hwx0_0 : ∀ i : grid0.Coords, EltTy.bits .f32 = 32 ∨ (Rect.block (s := S100352x128) S12544x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12544x128.size a ≤ S100352x128.size a
  hwx0_1 : ∀ i : grid0.Coords, EltTy.bits .f32 = 32 ∨ (Rect.block (s := S100352x128) S12544x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12544x128.size a ≤ S100352x128.size a
  hwx0_2 : ∀ i : grid0.Coords, EltTy.bits .f32 = 32 ∨ (Rect.block (s := S100352x128) S12544x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_v0) S12544x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12544x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12544x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1x448x448 : Shape := ⟨4, ![64, 1, 448, 448]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S64x1x448x448, .f32⟩
  | .hbm, ⟨1, _⟩ => ⟨S64x1x448x448, .f32⟩
  | .hbm, ⟨2, _⟩ => ⟨S64x1x448x448, .f32⟩
  | .hbm, ⟨3, _⟩ => ⟨S64x1x448x448, .f32⟩
  | .hbm, ⟨4, _⟩ => ⟨S_, .f32⟩
  | .hbm, ⟨5, _⟩ => ⟨S64x1x448x448, .f32⟩
  | .hbm, ⟨6, _⟩ => ⟨S64x1x448x448, .f32⟩
  | .hbm, ⟨7, _⟩ => ⟨S64x1x448x448, .f32⟩
  | .hbm, ⟨8, _⟩ => ⟨S64x1x448x448, .f32⟩
  | .hbm, ⟨9, _⟩ => ⟨S_, .f32⟩
  | .hbm, ⟨10, _⟩ => ⟨S64x1x448x448, .f32⟩
  | .hbm, ⟨11, _⟩ => ⟨S64x1x448x448, .f32⟩
  | .hbm, ⟨12, _⟩ => ⟨S64x1x448x448, .f32⟩
  | .hbm, ⟨13, _⟩ => ⟨S_, .f32⟩
  | .hbm, ⟨14, _⟩ => ⟨S64x1x448x448, .f32⟩
  | .hbm, ⟨15, _⟩ => ⟨S64x1x448x448, .f32⟩
  | .hbm, ⟨16, _⟩ => ⟨S64x1x448x448, .f32⟩
  | .hbm, ⟨17, _⟩ => ⟨S64x1x448x448, .f32⟩
  | .hbm, ⟨18, _⟩ => ⟨S64x1x448x448, .f32⟩
  | .hbm, ⟨19, _⟩ => ⟨S64x1x448x448, .f32⟩
  | .hbm, ⟨20, _⟩ => ⟨S64x1x448x448, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S64x1x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S64x1x448x448 : S_.BroadcastsInDim S64x1x448x448 (![] : Fin 0 → Fin S64x1x448x448.rank)
  reducesTo_S64x1x448x448_S_d0_1_2_3 : S64x1x448x448.ReducesTo [0, 1, 2, 3] S_
  h_S_ : 0 < S_.numel

variable [Facts₀]

class Facts : Prop extends Facts₀ where

variable [Facts]
-- ==== Proof.LossTerm.lean ====
/-
  The summand of the loss, as the two programs compute it on one element, over the extended reals.

  With `lo` the lower clamp of the logarithms (the literal -100), `one` and `zero` the literals 1 and 0:
  the kernel computes   (0 - (t · max (log p) lo + (1 - t) · max (log1p (0 - p)) lo)) · (1 + s),
  the reference         a · s + a   with   a = -(t · max (log p) lo + (1 - t) · max (log1p (-p)) lo).
  For finite t, p, s both clamped logarithms are real numbers (a logarithm of a finite number is a real
  number or -∞, and the maximum with -100 is then real), so a is real and a · (1 + s) = a · s + a is the
  distributive law of the real numbers.
-/
import Idealize.ShloMosaic.PureOps.Ideal

noncomputable section

namespace Cert.Loss

open Idealize.ShloMosaic

/-- The lower clamp of the logarithms: the literal -100. -/
abbrev lo : EReal := Ideal.ofBits .f32 0xC2C80000#32
/-- The literal 1. -/
abbrev one : EReal := Ideal.ofBits .f32 0x3F800000#32
/-- The literal 0. -/
abbrev zero : EReal := Ideal.ofBits .f32 0x00000000#32

/-- One element's summand as the kernel computes it. -/
def termK (t p s : EReal) : EReal :=
  (zero - (t * max (Ideal.log p) lo + (one - t) * max (Ideal.log1p (zero - p)) lo)) * (one + s)

/-- One element's summand as the reference computes it. -/
def termR (t p s : EReal) : EReal :=
  -(t * max (Ideal.log p) lo + (one - t) * max (Ideal.log1p (-p)) lo) * s
    + -(t * max (Ideal.log p) lo + (one - t) * max (Ideal.log1p (-p)) lo)

/-- The lower clamp is the real number -100. -/
theorem lo_eq : lo = ((-100 : ℝ) : EReal) := by
  simp [Ideal.ofBits, Ideal.ieee, -EReal.coe_mul]; norm_num

/-- The literal 1 is the real number 1. -/
theorem one_eq : one = ((1 : ℝ) : EReal) := by
  simp [Ideal.ofBits, Ideal.ieee, -EReal.coe_mul]; norm_num

/-- The literal 0 is the real number 0. -/
theorem zero_eq : zero = ((0 : ℝ) : EReal) := by
  simp [Ideal.ofBits, Ideal.ieee]

/-- The logarithm of a real number is a real number or -∞, so its maximum with -100 is a real number. -/
theorem clamp_real (q : ℝ) : ∃ l : ℝ, max (Ideal.log (q : EReal)) lo = (l : EReal) := by
  rw [lo_eq, Ideal.log_coe]
  split_ifs with hq
  · exact ⟨-100, max_eq_right bot_le⟩
  · rcases le_total (Real.log q) (-100) with h | h
    · exact ⟨-100, max_eq_right (EReal.coe_le_coe_iff.2 h)⟩
    · exact ⟨Real.log q, max_eq_left (EReal.coe_le_coe_iff.2 h)⟩

/-- For real p, log1p of 0 - p is the logarithm of the real number 1 - p. -/
theorem log1p_zero_sub (p : ℝ) :
    Ideal.log1p (zero - (p : EReal)) = Ideal.log (((1 - p : ℝ)) : EReal) := by
  unfold Ideal.log1p
  rw [zero_eq]
  congr 1
  rw [← EReal.coe_one, ← EReal.coe_sub, ← EReal.coe_add]
  congr 1
  ring

/-- For real p, log1p of -p is the logarithm of the real number 1 - p. -/
theorem log1p_neg (p : ℝ) :
    Ideal.log1p (-(p : EReal)) = Ideal.log (((1 - p : ℝ)) : EReal) := by
  unfold Ideal.log1p
  have h : (1 : EReal) + -(p : EReal) = ((1 - p : ℝ) : EReal) := by
    rw [← EReal.coe_one, ← EReal.coe_neg, ← EReal.coe_add, sub_eq_add_neg]
  rw [h]

/-- On finite arguments the two summands are the same number. -/
theorem termK_eq_termR (t p s : ℝ) : termK (t : EReal) (p : EReal) (s : EReal) = termR (t : EReal) (p : EReal) (s : EReal) := by
  -- both clamped logarithms are real numbers a and b
  obtain ⟨a, ha⟩ := clamp_real p
  obtain ⟨b, hb⟩ := clamp_real (1 - p)
  unfold termK termR
  rw [log1p_zero_sub, log1p_neg, ha, hb, one_eq, zero_eq]
  -- every quantity is now a real number: the identity is the distributive law
  norm_cast
  ring

end Cert.Loss

end
-- ==== Proof.KernelCell.lean ====
/-
  One cell of a tile's partial sums.

  The body's stored value, read at sublane r and lane l of its 1 × 8 × 128 block, is the sum over the 1568 slabs s of
  the summand at row 8·s + r, lane l of the three loaded 12544 × 128 tiles: the shape cast to 1568 × 8 × 128 keeps the
  row-major order (slab s, sublane r, lane l is row 8·s + r, lane l), the reduction over the slab axis adds its 1568
  coordinates, and the arithmetic before it is elementwise.
-/
import proofs.«174479_j81389630259398_2_alg».proof.Proof.Gen.KernelIdeal.Skeleton
import proofs.«174479_j81389630259398_2_alg».proof.Proof.LossTerm
import Idealize.ShloMosaic.Lib.Pipeline.Value
import Idealize.ShloMosaic.Lib.ValueIdx
import Idealize.ShloMosaic.PureOps.Ideal.Laws

noncomputable section

namespace Cert.Loss

open Idealize.ShloMosaic Idealize.ShloMosaic.ValueIdx Cert.KernelIdeal Cert.KernelIdeal.Gen

/-- The summand on every element of a tile. -/
def tileTerms (b0 b1 b2 : Vec Ideal S12544x128 .f32) : FVec Ideal S12544x128 .f32 :=
  fun y => termK (b0 y) (b1 y) (b2 y)

/-- The stored value is the tile's summands, re-shaped into slabs, added over the slabs, with a unit axis in front. -/
theorem pay_eq (b0 b1 b2 : Vec Ideal S12544x128 .f32) :
    k0_pay1 (F := Ideal) b0 b1 b2
      = shapeCast S1x8x128
          (multiReduction .add [0] S8x128 (shapeCast S1568x8x128 (tileTerms b0 b1 b2) Facts₀.shapeCasts_S12544x128_S1568x8x128)
            0x00000000#32 Facts₀.reduces_S1568x8x128_S8x128 (.inl rfl) rfl)
          Facts₀.shapeCasts_S8x128_S1x8x128 := by
  unfold k0_pay1
  simp only [shapeCast_self]
  rfl

theorem row_lt (s : Fin 1568) (r : Fin 8) : 8 * s.val + r.val < 12544 := by omega

/-- Slab s, sublane r, lane l of the re-shaped tile is row 8·s + r, lane l of the tile. -/
theorem slab_apply (v : FVec Ideal S12544x128 .f32) (s : Fin 1568) (r : Fin 8) (l : Fin 128) :
    shapeCast S1568x8x128 v Facts₀.shapeCasts_S12544x128_S1568x8x128 (ix3 s r l) = v (ix2 ⟨8 * s.val + r.val, row_lt s r⟩ l) := by
  refine shapeCast_apply v _ (ix3 s r l) (ix2 ⟨8 * s.val + r.val, row_lt s r⟩ l) ?_
  rw [Shape.rowMajor_val_two, Shape.rowMajor_val_three]
  show (8 * s.val + r.val) * 128 + l.val = (s.val * 8 + r.val) * 128 + l.val
  omega

/-- The cell at sublane r, lane l: the sum over the slabs. -/
theorem pay_apply (b0 b1 b2 : Vec Ideal S12544x128 .f32) (z : Fin 1) (r : Fin 8) (l : Fin 128) :
    k0_pay1 (F := Ideal) b0 b1 b2 (ix3 z r l)
      = ∑ s : Fin 1568, termK (b0 (ix2 ⟨8 * s.val + r.val, row_lt s r⟩ l)) (b1 (ix2 ⟨8 * s.val + r.val, row_lt s r⟩ l))
          (b2 (ix2 ⟨8 * s.val + r.val, row_lt s r⟩ l)) := by
  rw [pay_eq]
  refine (shapeCast_addUnit_apply ![8, 128] _ Facts₀.shapeCasts_S8x128_S1x8x128 (ix3 z r l)).trans ?_
  have e : (fun a : Fin 2 => (ix3 z r l) a.succ) = ix2 r l := by
    funext a; match a with | ⟨0, _⟩ => rfl | ⟨1, _⟩ => rfl
  rw [e]
  refine (Ideal.multiReduction_add_single _ 0x00000000#32 Facts₀.reduces_S1568x8x128_S8x128 (.inl rfl) rfl (ix2 r l)).trans ?_
  refine Finset.sum_congr rfl fun s _ => ?_
  have e2 : (Facts₀.reduces_S1568x8x128_S8x128).lift (ix2 r l) s = ix3 s r l := by
    funext a; apply Fin.ext; match a with | ⟨0, _⟩ => rfl | ⟨1, _⟩ => rfl | ⟨2, _⟩ => rfl
  rw [e2]
  exact slab_apply (tileTerms b0 b1 b2) s r l

end Cert.Loss

end
-- ==== Proof.Cells.lean ====
/-
  The array of partial sums, as one function of the three 100352 × 128 arrays the kernel streams.

  Tile t holds rows 12544·t … 12544·t + 12543. The cell at tile t, sublane r, lane l is the sum over the 1568 slabs s of
  the summand at row 12544·t + 8·s + r, lane l.
-/
import proofs.«174479_j81389630259398_2_alg».proof.Proof.LossTerm
import Idealize.ShloMosaic.Lib.ValueIdx

open scoped BigOperators

noncomputable section

namespace Cert.Loss

open Idealize.ShloMosaic Idealize.ShloMosaic.ValueIdx

theorem tile_row_lt (t : Fin 8) (s : Fin 1568) (r : Fin 8) : 12544 * t.val + 8 * s.val + r.val < 100352 := by omega

/-- One cell: tile t, sublane r, lane l. -/
def cell (A0 A1 A2 : (⟨2, ![100352, 128]⟩ : Shape).Idx → EReal) (t : Fin 8) (r : Fin 8) (l : Fin 128) : EReal :=
  ∑ s : Fin 1568, termK (A0 (ix2 (⟨12544 * t.val + 8 * s.val + r.val, tile_row_lt t s r⟩ : Fin 100352) l))
    (A1 (ix2 (⟨12544 * t.val + 8 * s.val + r.val, tile_row_lt t s r⟩ : Fin 100352) l))
    (A2 (ix2 (⟨12544 * t.val + 8 * s.val + r.val, tile_row_lt t s r⟩ : Fin 100352) l))

/-- The 8 × 8 × 128 array of cells. -/
def cells (A0 A1 A2 : (⟨2, ![100352, 128]⟩ : Shape).Idx → EReal) : (⟨3, ![8, 8, 128]⟩ : Shape).Idx → EReal :=
  fun j => cell A0 A1 A2 (j 0) (j 1) (j 2)

end Cert.Loss

end
-- ==== Proof.KernelArray.lean ====
/-
  The array of partial sums after the kernel has run.

  Grid point t stages rows 12544·t … 12544·t + 12543 of each of the three 100352 × 128 arrays (block t along the
  rows, all 128 lanes) and writes back block t of the 8 × 8 × 128 result (all of its sublanes and lanes). What it writes
  is the cells of tile t; the eight blocks tile the result, so after the run the result array is the array of cells.
-/
import proofs.«174479_j81389630259398_2_alg».proof.Proof.Gen.KernelIdeal.Frame
import proofs.«174479_j81389630259398_2_alg».proof.Proof.KernelCell
import proofs.«174479_j81389630259398_2_alg».proof.Proof.Cells
import Idealize.ShloMosaic.Lib.Pipeline.Value

noncomputable section

namespace Cert.Loss

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The cells of tile t from the tile's three blocks: a block's row q is row 12544·t + q of its array. -/
theorem block_cell (A0 A1 A2 : S100352x128.Idx → EReal) (b0 b1 b2 : Vec Ideal S12544x128 .f32) (t : Fin 8)
    (h0 : ∀ (q : Fin 12544) (l : Fin 128) (hq : 12544 * t.val + q.val < 100352),
      b0 (ix2 q l) = A0 (ix2 (⟨12544 * t.val + q.val, hq⟩ : Fin 100352) l))
    (h1 : ∀ (q : Fin 12544) (l : Fin 128) (hq : 12544 * t.val + q.val < 100352),
      b1 (ix2 q l) = A1 (ix2 (⟨12544 * t.val + q.val, hq⟩ : Fin 100352) l))
    (h2 : ∀ (q : Fin 12544) (l : Fin 128) (hq : 12544 * t.val + q.val < 100352),
      b2 (ix2 q l) = A2 (ix2 (⟨12544 * t.val + q.val, hq⟩ : Fin 100352) l))
    (z : Fin 1) (r : Fin 8) (l : Fin 128) :
    k0_pay1 (F := Ideal) b0 b1 b2 (ix3 z r l) = cell A0 A1 A2 t r l := by
  rw [pay_apply]
  unfold cell
  refine Finset.sum_congr rfl fun s _ => ?_
  have hq : 12544 * t.val + (8 * s.val + r.val) < 100352 := by have := tile_row_lt t s r; omega
  have e : (⟨12544 * t.val + (8 * s.val + r.val), hq⟩ : Fin 100352) = ⟨12544 * t.val + 8 * s.val + r.val, tile_row_lt t s r⟩ :=
    Fin.ext (Nat.add_assoc _ _ _).symm
  rw [h0 ⟨8 * s.val + r.val, row_lt s r⟩ l hq, h1 ⟨8 * s.val + r.val, row_lt s r⟩ l hq, h2 ⟨8 * s.val + r.val, row_lt s r⟩ l hq, e]

/-- The printed index maps, decided over the eight grid points: every window's block index along the leading axis is
    the point's number, and 0 along the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 ∧ t.val < 8 :=
  (by decide +kernel : ∀ t : Fin grid0.N, _)

/-- Row q of point t's block of the first streamed array is row 12544·t + q of that array. -/
theorem blk0 (c : Dev nD) (t : Fin cfg0.N) (q : Fin 12544) (l : Fin 128) (hq : 12544 * t.val + q.val < 100352) :
    iblk m c 0 t (ix2 q l) = V m c main_v0 (ix2 (⟨12544 * t.val + q.val, hq⟩ : Fin 100352) l) := by
  obtain ⟨e0, e1, -⟩ := idx_facts t
  show V m c main_v0 (((cfg0.win 0).blk t).view.emb (ix2 q l)) = V m c main_v0 (ix2 (⟨12544 * t.val + q.val, hq⟩ : Fin 100352) l)
  refine congrArg (V m c main_v0) (funext fun a => Fin.ext ?_)
  match a with
  | ⟨0, _⟩ => show win0_0.index t (0 : Fin 2) * 12544 + 1 * q.val = 12544 * t.val + q.val; omega
  | ⟨1, _⟩ => show win0_0.index t (1 : Fin 2) * 128 + 1 * l.val = l.val; omega

theorem blk1 (c : Dev nD) (t : Fin cfg0.N) (q : Fin 12544) (l : Fin 128) (hq : 12544 * t.val + q.val < 100352) :
    iblk m c 1 t (ix2 q l) = V m c main_v1 (ix2 (⟨12544 * t.val + q.val, hq⟩ : Fin 100352) l) := by
  obtain ⟨-, -, e0, e1, -⟩ := idx_facts t
  show V m c main_v1 (((cfg0.win 1).blk t).view.emb (ix2 q l)) = V m c main_v1 (ix2 (⟨12544 * t.val + q.val, hq⟩ : Fin 100352) l)
  refine congrArg (V m c main_v1) (funext fun a => Fin.ext ?_)
  match a with
  | ⟨0, _⟩ => show win0_1.index t (0 : Fin 2) * 12544 + 1 * q.val = 12544 * t.val + q.val; omega
  | ⟨1, _⟩ => show win0_1.index t (1 : Fin 2) * 128 + 1 * l.val = l.val; omega

theorem blk2 (c : Dev nD) (t : Fin cfg0.N) (q : Fin 12544) (l : Fin 128) (hq : 12544 * t.val + q.val < 100352) :
    iblk m c 2 t (ix2 q l) = V m c main_v2 (ix2 (⟨12544 * t.val + q.val, hq⟩ : Fin 100352) l) := by
  obtain ⟨-, -, -, -, e0, e1, -⟩ := idx_facts t
  show V m c main_v2 (((cfg0.win 2).blk t).view.emb (ix2 q l)) = V m c main_v2 (ix2 (⟨12544 * t.val + q.val, hq⟩ : Fin 100352) l)
  refine congrArg (V m c main_v2) (funext fun a => Fin.ext ?_)
  match a with
  | ⟨0, _⟩ => show win0_2.index t (0 : Fin 2) * 12544 + 1 * q.val = 12544 * t.val + q.val; omega
  | ⟨1, _⟩ => show win0_2.index t (1 : Fin 2) * 128 + 1 * l.val = l.val; omega

/-- WHAT POINT t WRITES BACK is block t of the array of cells of the three arrays as the region finds them. -/
theorem flushed_eq (c : Dev nD) (t : Fin cfg0.N) :
    (dats m 0 c).flushed 3 t
      = ((cfg0.win 3).blk t).view.read (Elt Ideal) (cells (V m c main_v0) (V m c main_v1) (V m c main_v2)) := by
  show (cfg0.win 3).cut (grid0.coords t) ((dats m 0 c).after 3 t) = _
  rw [after0_3]
  unfold out0_3
  rw [View.canon_unit_zero zeros3]
  simp only [View.ld_unit_zero (S := S12544x128) zeros2]
  obtain ⟨-, -, -, -, -, -, e0, e1, e2, ht⟩ := idx_facts t
  funext y
  obtain ⟨z, r, l, rfl⟩ : ∃ (z : Fin 1) (r : Fin 8) (l : Fin 128), y = ix3 z r l := ⟨y 0, y 1, y 2, eq_ix3 y⟩
  show k0_pay1 (F := Ideal) (iblk m c 0 t) (iblk m c 1 t) (iblk m c 2 t) (ix3 z r l)
    = cells (V m c main_v0) (V m c main_v1) (V m c main_v2) (((cfg0.win 3).blk t).view.emb (ix3 z r l))
  refine (block_cell (V m c main_v0) (V m c main_v1) (V m c main_v2) (iblk m c 0 t) (iblk m c 1 t) (iblk m c 2 t) ⟨t.val, ht⟩
    (fun q l hq => blk0 m c t q l hq) (fun q l hq => blk1 m c t q l hq) (fun q l hq => blk2 m c t q l hq) z r l).trans ?_
  have hz : z.val = 0 := by have := z.isLt; omega
  have a0 : (((cfg0.win 3).blk t).view.emb (ix3 z r l)) 0 = (⟨t.val, ht⟩ : Fin 8) :=
    Fin.ext (by show win0_3.index t (0 : Fin 3) * 1 + 1 * z.val = t.val; omega)
  have a1 : (((cfg0.win 3).blk t).view.emb (ix3 z r l)) 1 = r :=
    Fin.ext (by show win0_3.index t (1 : Fin 3) * 8 + 1 * r.val = r.val; omega)
  have a2 : (((cfg0.win 3).blk t).view.emb (ix3 z r l)) 2 = l :=
    Fin.ext (by show win0_3.index t (2 : Fin 3) * 128 + 1 * l.val = l.val; omega)
  show cell _ _ _ _ _ _ = cell _ _ _ ((((cfg0.win 3).blk t).view.emb (ix3 z r l)) 0) ((((cfg0.win 3).blk t).view.emb (ix3 z r l)) 1)
    ((((cfg0.win 3).blk t).view.emb (ix3 z r l)) 2)
  rw [a0, a1, a2]

/-- An index of the result is in point t's block iff each coordinate is in the block's range on its axis. -/
theorem mem_blk (t : Fin cfg0.N) (i : S8x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3).slice (win0_3.rect t)).set ↔ _
  rw [View.set_slice_whole, Rect.mem_set_unit]
  exact Iff.rfl

/-- Every index of the result is in the block of the point numbered by its leading coordinate. -/
theorem cover (i : S8x8x128.Idx) :
    ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  have hN : grid0.N = 8 := N_0
  refine ⟨⟨(i 0).val, by show (i 0).val < grid0.N; omega⟩, flush0_3 _, ?_⟩
  rw [mem_blk]
  obtain ⟨-, -, -, -, -, -, e0, e1, e2, -⟩ := idx_facts ⟨(i 0).val, by show (i 0).val < grid0.N; omega⟩
  intro a
  match a with
  | ⟨0, _⟩ => show win0_3.index _ (0 : Fin 3) * 1 ≤ (i 0).val ∧ (i 0).val < win0_3.index _ (0 : Fin 3) * 1 + 1; simp only [] at e0; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- THE RESULT ARRAY after the run is the array of cells. -/
theorem final (c : Dev nD) :
    (dats m 0 c).arrAt 3 cfg0.N = cells (V m c main_v0) (V m c main_v1) (V m c main_v2) :=
  (dats m 0 c).arrAt_eq_of_cover 3 _ (fun t _ => flushed_eq m c t) cover

end Cert.Loss

end
-- ==== Proof.KernelRun.lean ====
/-
  The kernel's whole program, read as a value.

  Before the region the three arguments are re-shaped, in row-major order, into 100352 × 128 arrays; the region leaves the
  8 × 8 × 128 array of cells; after it the program adds all cells to the initial value 0 and divides by the literal
  12845056. The arguments are never written.
-/
import proofs.«174479_j81389630259398_2_alg».proof.Proof.KernelArray
import Idealize.ShloMosaic.Lib.StableHlo.Run

noncomputable section

namespace Cert.Loss

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The operations after the region, as one function of the array of cells: the total from 0, divided by the count. -/
def tailOf (P : S8x8x128.Idx → EReal) : S_.Idx → EReal :=
  Host.divf (F := Ideal)
    (Host.reduceAdd (F := Ideal) (φ := .f32) P (constant (F := Ideal) S_ .f32 0x00000000#32) Facts₀.reducesTo_S8x8x128_S_d0_1_2 Facts₀.h_S_)
    (constant (F := Ideal) S_ .f32 0x4B440000#32)

/-- The region finds the first streamed array as the first argument re-shaped. -/
theorem V_v0 (c : Dev nD) :
    (V m c main_v0 : S100352x128.Idx → EReal)
      = shapeCast S100352x128 (m ((c : Thread nD τ).loc main_arg0)) Facts₀.shapeCasts_S64x1x448x448_S100352x128 := by
  show StableHlo.after hostOps0 (fun b => m (c, b)) (Proc.devRef .tc main_v0) = _
  after_results
  rfl

theorem V_v1 (c : Dev nD) :
    (V m c main_v1 : S100352x128.Idx → EReal)
      = shapeCast S100352x128 (m ((c : Thread nD τ).loc main_arg1)) Facts₀.shapeCasts_S64x1x448x448_S100352x128 := by
  show StableHlo.after hostOps0 (fun b => m (c, b)) (Proc.devRef .tc main_v1) = _
  after_results
  rfl

theorem V_v2 (c : Dev nD) :
    (V m c main_v2 : S100352x128.Idx → EReal)
      = shapeCast S100352x128 (m ((c : Thread nD τ).loc main_arg2)) Facts₀.shapeCasts_S64x1x448x448_S100352x128 := by
  show StableHlo.after hostOps0 (fun b => m (c, b)) (Proc.devRef .tc main_v2) = _
  after_results
  rfl

/-- The program's result is the operations after the region applied to the result array the region leaves. -/
theorem tail_eq (c : Dev nD) :
    Pipeline.afterTail₀ cfgs (dats m) 0 (V0 m) [hostOps1] c main_v5 = tailOf ((dats m 0 c).arrAt 3 cfg0.N) := by
  unfold Pipeline.afterTail₀
  show StableHlo.after hostOps1 _ (Proc.devRef .tc main_v5) = _
  after_results
  exact congrArg tailOf
    (Pipeline.withArrays_arr spec0 launch0.win.arr_inj c (V0 m c) (fun w => (dats m 0 c).arrAt w cfg0.N) 3)

/-- THE RUN: every weakly fair execution of the kernel's program terminates with the result at the operations after the
    region applied to the array of cells of the re-shaped arguments, and the arguments unchanged. -/
theorem kernel_run : θ_run defs (onTc (τ := τ) (main (F := Ideal))) ⟨m, fun _ => 0, ρ⟩ fun r => ∀ c : Dev nD,
      r.2.mem ((c : Thread nD τ).loc main_v5)
        = tailOf (cells
            (shapeCast S100352x128 (m ((c : Thread nD τ).loc main_arg0)) Facts₀.shapeCasts_S64x1x448x448_S100352x128)
            (shapeCast S100352x128 (m ((c : Thread nD τ).loc main_arg1)) Facts₀.shapeCasts_S64x1x448x448_S100352x128)
            (shapeCast S100352x128 (m ((c : Thread nD τ).loc main_arg2)) Facts₀.shapeCasts_S64x1x448x448_S100352x128))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v5 (Pipeline.mem_restRefs_of main_v5 (by decide) (by decide))).trans
          ((tail_eq m c).trans (by rw [final m c, V_v0 m c, V_v1 m c, V_v2 m c])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.Loss

end
-- ==== Proof.RefSide.lean ====
/-
  The reference's result, read as a sum.

  The reference computes its summand on every element of the three 64 × 1 × 448 × 448 arrays, adds all 12845056 of them
  to the initial value 0, and divides by the literal 12845056.
-/
import proofs.«174479_j81389630259398_2_alg».proof.Proof.Gen.ReferenceIdeal.Read
import proofs.«174479_j81389630259398_2_alg».proof.Proof.LossTerm

open scoped BigOperators

noncomputable section

namespace Cert.Loss

open Idealize.ShloMosaic

/-- The initial value 0 plus a total, divided by the literal count of elements. -/
def meanOf (total : EReal) : EReal := Ideal.div (zero + total) (Ideal.ofBits .f32 0x4B440000#32)

/-- The reference's last stage is the mean of its summands over every element. -/
theorem ref_eq (x0 x1 x2 : (⟨Cert.ReferenceIdeal.S64x1x448x448, .f32⟩ : BufTy).Contents (Elt Ideal)) :
    Cert.ReferenceIdeal.Read.val_main_v16 (F := Ideal) x0 x1 x2
      = fun _ => meanOf (∑ k : Cert.ReferenceIdeal.S64x1x448x448.Idx, termR (x0 k) (x1 k) (x2 k)) := by
  funext i
  rw [Cert.ReferenceIdeal.Read.val_main_v16_apply, Cert.ReferenceIdeal.Read.val_main_v15_apply,
    Cert.ReferenceIdeal.Read.val_main_cst_3_apply, Cert.ReferenceIdeal.Read.val_main_cst_2_apply]
  rfl

end Cert.Loss

end
-- ==== Proof.LibRegroup.lean ====
import Mathlib
import Idealize.ShloMosaic.Lib.ValueIdx

/-!
# Re-indexing finite sums

All sums are finite sums in an arbitrary additive commutative monoid.

* A sum over the index set of a rank-1, rank-3 or rank-4 shape is the iterated sum over the
  coordinates (the index set is the product of the coordinate ranges).
* A sum over `Fin (m * n)` is the double sum over `i < m`, `j < n` of the summand at `n * i + j`
  (every number below `m * n` is `n * i + j` for exactly one such pair), and, read the other way, the
  summand at quotient `T / n` and remainder `T % n` summed over `T < m * n` is the double sum over
  quotient and remainder.
* These are instantiated at the sizes `48 = 2 * 24 = 16 * 3`, `16384 = 32 * 512` and
  `512 = 16 * 32`: sixteen chunks of `32` rows of `512` columns are the `512 × 512` square.
* A sum over `512` columns whose last summand is replaced by zero is the sum over the first `511`.
-/

open scoped BigOperators

namespace Idealize.ShloMosaic.Regroup

open Idealize.ShloMosaic Idealize.ShloMosaic.ValueIdx

variable {M : Type*} [AddCommMonoid M]

/-! ## Sums over the index set of a shape -/

/-- A rank-1 index set is its one coordinate range. -/
def idxEquiv1 {a : Nat} : (⟨1, ![a]⟩ : Shape).Idx ≃ Fin a where
  toFun i := i 0
  invFun p := ix1 p
  left_inv i := (eq_ix1 i).symm
  right_inv _ := rfl

/-- A sum over a rank-1 index set is the sum over the coordinate. -/
theorem sum_idx1 {a : Nat} (f : (⟨1, ![a]⟩ : Shape).Idx → M) :
    ∑ p : (⟨1, ![a]⟩ : Shape).Idx, f p = ∑ i : Fin a, f (ix1 i) := by
  rw [← Equiv.sum_comp (idxEquiv1 (a := a)).symm f]
  rfl

/-- A rank-3 index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over a rank-3 index set is the triple sum over the coordinates. -/
theorem sum_idx3 {a b c : Nat} (f : (⟨3, ![a, b, c]⟩ : Shape).Idx → M) :
    ∑ p : (⟨3, ![a, b, c]⟩ : Shape).Idx, f p
      = ∑ i : Fin a, ∑ j : Fin b, ∑ k : Fin c, f (ix3 i j k) := by
  rw [← Equiv.sum_comp (idxEquiv3 (a := a) (b := b) (c := c)).symm f, Fintype.sum_prod_type]
  simp only [Fintype.sum_prod_type]
  rfl

/-- A rank-4 index set is the product of its four coordinate ranges. -/
def idxEquiv4 {a b c d : Nat} :
    (⟨4, ![a, b, c, d]⟩ : Shape).Idx ≃ Fin a × Fin b × Fin c × Fin d where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {a b c d : Nat} (f : (⟨4, ![a, b, c, d]⟩ : Shape).Idx → M) :
    ∑ p : (⟨4, ![a, b, c, d]⟩ : Shape).Idx, f p
      = ∑ i : Fin a, ∑ j : Fin b, ∑ k : Fin c, ∑ l : Fin d, f (ix4 i j k l) := by
  rw [← Equiv.sum_comp (idxEquiv4 (a := a) (b := b) (c := c) (d := d)).symm f,
    Fintype.sum_prod_type]
  simp only [Fintype.sum_prod_type]
  rfl

/-! ## Sums over a product of two ranges, laid out in a line -/

/-- For `i < m` and `j < n` the number `n * i + j` is below `m * n`. -/
theorem mul_add_lt {m n i j : Nat} (hi : i < m) (hj : j < n) : n * i + j < m * n := by
  calc n * i + j < n * i + n := by omega
    _ = n * (i + 1) := by ring
    _ ≤ n * m := Nat.mul_le_mul_left n hi
    _ = m * n := Nat.mul_comm n m

/-- A sum over `N = m * n` consecutive numbers is the sum over `m` runs of `n` consecutive numbers:
    the summand at `n * i + j`, summed over `i < m` and `j < n`. -/
theorem sum_fin_mul (m n N : Nat) (hN : m * n = N) (G : Fin N → M) :
    ∑ i : Fin m, ∑ j : Fin n, G ⟨n * i.val + j.val, hN ▸ mul_add_lt i.isLt j.isLt⟩
      = ∑ T : Fin N, G T := by
  subst hN
  rw [← Equiv.sum_comp finProdFinEquiv G, Fintype.sum_prod_type]
  refine Finset.sum_congr rfl fun i _ => Finset.sum_congr rfl fun j _ => ?_
  congr 1
  apply Fin.ext
  simp [finProdFinEquiv, Nat.add_comm]

/-- The summand at the quotient and remainder of `T` by `n`, summed over the `N = m * n` numbers
    `T < N`, is the double sum over quotients `i < m` and remainders `j < n`. -/
theorem sum_fin_divmod (m n N : Nat) (hN : m * n = N) (hn : 0 < n) (g : Fin m → Fin n → M) :
    ∑ T : Fin N, g ⟨T.val / n, Nat.div_lt_of_lt_mul (by rw [Nat.mul_comm, hN]; exact T.isLt)⟩
        ⟨T.val % n, Nat.mod_lt _ hn⟩
      = ∑ i : Fin m, ∑ j : Fin n, g i j := by
  subst hN
  rw [← Fintype.sum_prod_type (f := fun p : Fin m × Fin n => g p.1 p.2),
    ← Equiv.sum_comp finProdFinEquiv.symm (fun p : Fin m × Fin n => g p.1 p.2)]
  refine Finset.sum_congr rfl fun T _ => ?_
  congr 1 <;> apply Fin.ext <;> simp [finProdFinEquiv, Fin.divNat, Fin.modNat]

/-! ## The sizes used -/

/-- Two groups of twenty-four points are forty-eight points. -/
theorem sum_points (F : Nat → M) :
    ∑ c : Fin 2, ∑ t : Fin 24, F (24 * c.val + t.val) = ∑ T : Fin 48, F T.val :=
  sum_fin_mul 2 24 48 rfl (fun T => F T.val)

/-- Forty-eight points are sixteen blocks of three channels: the point `T` is channel `T % 3` of
    block `T / 3`. -/
theorem sum_tiles3 (g : Fin 16 → Fin 3 → M) :
    ∑ T : Fin 48, g ⟨T.val / 3, by omega⟩ ⟨T.val % 3, by omega⟩
      = ∑ b : Fin 16, ∑ ch : Fin 3, g b ch :=
  sum_fin_divmod 16 3 48 rfl (by decide) g

/-- Sixteen chunks of `16384 = 32 * 512` cells, the cell `n` of chunk `k` being row
    `32 * k + n / 512`, column `n % 512`, are the `512 × 512` square. -/
theorem sum_chunk_rows (h : Fin 512 → Fin 512 → M) :
    ∑ k : Fin 16, ∑ n : Fin 16384, h ⟨32 * k.val + n.val / 512, by omega⟩ ⟨n.val % 512, by omega⟩
      = ∑ r : Fin 512, ∑ col : Fin 512, h r col := by
  have h1 : ∀ k : Fin 16,
      ∑ n : Fin 16384, h ⟨32 * k.val + n.val / 512, by omega⟩ ⟨n.val % 512, by omega⟩
        = ∑ q : Fin 32, ∑ col : Fin 512, h ⟨32 * k.val + q.val, by omega⟩ col := fun k =>
    sum_fin_divmod 32 512 16384 rfl (by decide)
      (fun q col => h ⟨32 * k.val + q.val, by omega⟩ col)
  rw [Finset.sum_congr rfl fun k _ => h1 k]
  exact sum_fin_mul 16 32 512 rfl (fun r => ∑ col : Fin 512, h r col)

/-- A sum over `512` columns in which the last column's summand is replaced by zero is the sum over
    the first `511` columns. -/
theorem sum_drop_last (h : Fin 512 → M) :
    ∑ col : Fin 512, (if col.val < 511 then h col else 0)
      = ∑ col' : Fin 511, h ⟨col'.val, by omega⟩ := by
  rw [Fin.sum_univ_castSucc (n := 511)]
  simp only [Fin.val_last, lt_irrefl, if_false, add_zero]
  refine Finset.sum_congr rfl fun c _ => ?_
  rw [if_pos (by simp)]
  rfl

/-- Two groups of twenty-four points, each with sixteen chunks of `16384` cells, are sixteen blocks
    of three channels of `512 × 512` squares: point `T = 24 * c + t` is channel `T % 3` of block
    `T / 3`, and cell `n` of chunk `k` is row `32 * k + n / 512`, column `n % 512`. -/
theorem sum_regroup (g : Fin 16 → Fin 3 → Fin 512 → Fin 512 → M) :
    ∑ c : Fin 2, ∑ t : Fin 24, ∑ k : Fin 16, ∑ n : Fin 16384,
        g ⟨(24 * c.val + t.val) / 3, by omega⟩ ⟨(24 * c.val + t.val) % 3, by omega⟩
          ⟨32 * k.val + n.val / 512, by omega⟩ ⟨n.val % 512, by omega⟩
      = ∑ b : Fin 16, ∑ ch : Fin 3, ∑ r : Fin 512, ∑ col : Fin 512, g b ch r col := by
  have h1 := sum_fin_mul 2 24 48 rfl (fun T : Fin 48 => ∑ k : Fin 16, ∑ n : Fin 16384,
      g ⟨T.val / 3, by omega⟩ ⟨T.val % 3, by omega⟩
        ⟨32 * k.val + n.val / 512, by omega⟩ ⟨n.val % 512, by omega⟩)
  have h2 := sum_fin_divmod 16 3 48 rfl (by decide) (fun b ch => ∑ k : Fin 16, ∑ n : Fin 16384,
      g b ch ⟨32 * k.val + n.val / 512, by omega⟩ ⟨n.val % 512, by omega⟩)
  refine h1.trans (h2.trans ?_)
  exact Finset.sum_congr rfl fun b _ => Finset.sum_congr rfl fun ch _ => sum_chunk_rows (g b ch)

end Idealize.ShloMosaic.Regroup
-- ==== Proof.SumTiles.lean ====
/-
  The kernel's order of summation covers every element once.

  The 100352 rows of 128 lanes are cut into 8 tiles of 12544 rows; inside a tile, row 8·s + r (s < 1568, r < 8) is
  sublane r of slab s, and the kernel adds the 1568 slabs of a tile into one 8 × 128 cell array per tile. So the
  sum over tiles t, sublanes r, lanes l of the inner sums over slabs s of the summand at row 12544·t + 8·s + r,
  lane l, is the sum over all rows and lanes: every row below 100352 is 12544·t + 8·s + r for exactly one (t, s, r).
-/
import proofs.«174479_j81389630259398_2_alg».proof.Proof.LibRegroup

open scoped BigOperators

namespace Cert.Loss

open Idealize.ShloMosaic Idealize.ShloMosaic.ValueIdx Idealize.ShloMosaic.Regroup

variable {M : Type*} [AddCommMonoid M]

/-- Tiles, sublanes, lanes and slabs together enumerate the rows and lanes once. -/
theorem sum_tiles (H : Fin 100352 → Fin 128 → M) :
    ∑ t : Fin 8, ∑ r : Fin 8, ∑ l : Fin 128, ∑ s : Fin 1568,
        H ⟨12544 * t.val + 8 * s.val + r.val, by omega⟩ l
      = ∑ row : Fin 100352, ∑ l : Fin 128, H row l := by
  -- the 100352 rows are 8 tiles of 12544 rows: row = 12544 * t + q
  have hA := sum_fin_mul 8 12544 100352 rfl (fun row : Fin 100352 => ∑ l : Fin 128, H row l)
  -- the 12544 rows of tile t are 1568 slabs of 8 sublanes: q = 8 * s + r
  have hB : ∀ t : Fin 8,
      ∑ s : Fin 1568, ∑ r : Fin 8, ∑ l : Fin 128,
          H ⟨12544 * t.val + (8 * s.val + r.val), by omega⟩ l
        = ∑ q : Fin 12544, ∑ l : Fin 128, H ⟨12544 * t.val + q.val, by omega⟩ l := fun t =>
    sum_fin_mul 1568 8 12544 rfl
      (fun q : Fin 12544 => ∑ l : Fin 128, H ⟨12544 * t.val + q.val, by omega⟩ l)
  refine Eq.trans ?_ hA
  refine Finset.sum_congr rfl fun t _ => ?_
  refine Eq.trans ?_ (hB t)
  -- move the sum over slabs outside the sums over lanes and sublanes
  calc ∑ r : Fin 8, ∑ l : Fin 128, ∑ s : Fin 1568,
          H ⟨12544 * t.val + 8 * s.val + r.val, by omega⟩ l
      = ∑ r : Fin 8, ∑ s : Fin 1568, ∑ l : Fin 128,
          H ⟨12544 * t.val + 8 * s.val + r.val, by omega⟩ l :=
        Finset.sum_congr rfl fun r _ => Finset.sum_comm
    _ = ∑ s : Fin 1568, ∑ r : Fin 8, ∑ l : Fin 128,
          H ⟨12544 * t.val + 8 * s.val + r.val, by omega⟩ l := Finset.sum_comm
    _ = ∑ s : Fin 1568, ∑ r : Fin 8, ∑ l : Fin 128,
          H ⟨12544 * t.val + (8 * s.val + r.val), by omega⟩ l :=
        -- the two ways of bracketing the row number agree
        Finset.sum_congr rfl fun s _ => Finset.sum_congr rfl fun r _ =>
          Finset.sum_congr rfl fun l _ =>
            congrArg (fun x => H x l) (Fin.ext (Nat.add_assoc _ _ _))

/-- The same over the index sets of the two shapes: the cells of the 8 × 8 × 128 array of partial sums, each the sum
    over the 1568 slabs, together sum every element of the 100352 × 128 array. -/
theorem sum_cells (h : (⟨2, ![100352, 128]⟩ : Shape).Idx → M) :
    ∑ j : (⟨3, ![8, 8, 128]⟩ : Shape).Idx,
        (fun (t : Fin 8) (r : Fin 8) (l : Fin 128) =>
          ∑ s : Fin 1568, h (ix2 (⟨12544 * t.val + 8 * s.val + r.val, by omega⟩ : Fin 100352) l)) (j 0) (j 1) (j 2)
      = ∑ i : (⟨2, ![100352, 128]⟩ : Shape).Idx, h i :=
  -- both index sets are products of their coordinate ranges; then the sums agree by the regrouping of rows
  (sum_idx3 _).trans ((sum_tiles (fun row l => h (ix2 row l))).trans (sum_idx2 h).symm)

end Cert.Loss
-- ==== Proof.Bridge.lean ====
/-
  The two programs add the same numbers.

  The kernel's three 100352 × 128 arrays are the arguments re-shaped in row-major order, a one-to-one correspondence of
  index sets, so summing the kernel's summand over the cells' rows and lanes is summing it over the elements of the
  arguments; on finite elements the kernel's summand is the reference's.
-/
import proofs.«174479_j81389630259398_2_alg».proof.Proof.SumTiles
import proofs.«174479_j81389630259398_2_alg».proof.Proof.Cells
import Idealize.ShloMosaic.PureOps.ShapeOps

open scoped BigOperators

noncomputable section

namespace Cert.Loss

open Idealize.ShloMosaic Idealize.ShloMosaic.ValueIdx

/-- All cells together add the kernel's summand over every element of the arguments. -/
theorem sum_cells_shapeCast (x0 x1 x2 : (⟨4, ![64, 1, 448, 448]⟩ : Shape).Idx → EReal)
    (hc : (⟨4, ![64, 1, 448, 448]⟩ : Shape).ShapeCasts ⟨2, ![100352, 128]⟩) :
    ∑ j : (⟨3, ![8, 8, 128]⟩ : Shape).Idx,
        cells (shapeCast ⟨2, ![100352, 128]⟩ x0 hc) (shapeCast ⟨2, ![100352, 128]⟩ x1 hc) (shapeCast ⟨2, ![100352, 128]⟩ x2 hc) j
      = ∑ k : (⟨4, ![64, 1, 448, 448]⟩ : Shape).Idx, termK (x0 k) (x1 k) (x2 k) := by
  -- the cells sum the summand over every row and lane of the re-shaped arrays
  have h1 := sum_cells (fun i : (⟨2, ![100352, 128]⟩ : Shape).Idx =>
    termK (shapeCast ⟨2, ![100352, 128]⟩ x0 hc i) (shapeCast ⟨2, ![100352, 128]⟩ x1 hc i)
      (shapeCast ⟨2, ![100352, 128]⟩ x2 hc i))
  refine Eq.trans ?_ (h1.trans ?_)
  · -- a cell is by definition the sum over its slabs
    rfl
  · -- re-shaping is a one-to-one correspondence of the index sets
    exact Equiv.sum_comp (Shape.reshapeEquiv hc) (fun k => termK (x0 k) (x1 k) (x2 k))

/-- On arrays of real numbers the kernel's total is the reference's total. -/
theorem sum_termK_eq_sum_termR (x0 x1 x2 : (⟨4, ![64, 1, 448, 448]⟩ : Shape).Idx → EReal)
    (f0 : ∀ k, ∃ r : ℝ, x0 k = (r : EReal)) (f1 : ∀ k, ∃ r : ℝ, x1 k = (r : EReal)) (f2 : ∀ k, ∃ r : ℝ, x2 k = (r : EReal)) :
    ∑ k : (⟨4, ![64, 1, 448, 448]⟩ : Shape).Idx, termK (x0 k) (x1 k) (x2 k)
      = ∑ k : (⟨4, ![64, 1, 448, 448]⟩ : Shape).Idx, termR (x0 k) (x1 k) (x2 k) := by
  refine Finset.sum_congr rfl fun k _ => ?_
  obtain ⟨a, ha⟩ := f0 k
  obtain ⟨b, hb⟩ := f1 k
  obtain ⟨c, hc⟩ := f2 k
  rw [ha, hb, hc]
  exact termK_eq_termR a b c

end Cert.Loss

end
-- ==== Proof.Finite.lean ====
/-
  The precondition read element by element: when "every input is finite" evaluates to all ones, every
  element of each of the three argument arrays is a real number (neither +∞ nor -∞).
-/
import proofs.«174479_j81389630259398_2_alg».proof.Proof.Gen.Pre_finite_inputs
import Idealize.ShloMosaic.PureOps.Ideal
import Idealize.ShloMosaic.Lib.ReduceAll
import Idealize.ShloMosaic.Lib.ValueIdx

noncomputable section

namespace Cert.Loss

open Idealize.ShloMosaic

/-- The pattern 0x7F800000 (sign 0, exponent all ones, fraction 0) denotes +∞. -/
theorem ofBits_inf : Ideal.ofBits .f32 0x7F800000#32 = (⊤ : EReal) := by
  simp [Ideal.ofBits, Ideal.ieee]

/-- An extended real x with |x| = max x (-x) strictly below +∞ is a real number: at x = -∞ and at x = +∞ the
    maximum is +∞, which is not below itself. -/
theorem real_of_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One array: if the "and" of all the comparisons |x i| < +∞ is 1, every element of x is a real number. -/
theorem real_of_all (x : FVec Ideal Cert.Pre_finite_inputs.S64x1x448x448 .f32)
    (hb : Cert.Pre_finite_inputs.S_.BroadcastsInDim Cert.Pre_finite_inputs.S64x1x448x448
      (![] : Fin 0 → Fin Cert.Pre_finite_inputs.S64x1x448x448.rank))
    (hr : Cert.Pre_finite_inputs.S64x1x448x448.ReducesTo [0, 1, 2, 3] Cert.Pre_finite_inputs.S_)
    (hu : 0 < Cert.Pre_finite_inputs.S_.numel) (j : Cert.Pre_finite_inputs.S_.Idx)
    (h : Host.reduce IntOp.andi
        (cmpf .olt (Host.absf x)
          (broadcastInDim Cert.Pre_finite_inputs.S64x1x448x448 ![] hb
            (constant (F := Ideal) Cert.Pre_finite_inputs.S_ .f32 0x7F800000#32)))
        (constantI Cert.Pre_finite_inputs.S_ 1 1#1) hr hu j = 1#1) :
    ∀ i, ∃ r : ℝ, x i = (r : EReal) := by
  intro i
  -- the scalar shape has one index, so every element of the array reduces into the one result
  haveI : Subsingleton Cert.Pre_finite_inputs.S_.Idx := ⟨fun a b => funext fun d => d.elim0⟩
  have e := Host.reduce_andi_all _ _ hr hu j h i
  exact real_of_lt_top (x i) e

/-- Under the precondition every element of the three argument arrays is a real number. -/
theorem real_of_pre (x0 x1 x2 : FVec Ideal Cert.Pre_finite_inputs.S64x1x448x448 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 _ _ _ _ h0', real_of_all x1 _ _ _ _ h1, real_of_all x2 _ _ _ _ h2⟩

end Cert.Loss

end
-- ==== Proof.lean ====
/-
  The mean of a weighted binary cross-entropy, computed tile by tile, against the mean computed in one sum.

  On every element, with t the label, p the prediction, s the weight, and the two logarithms clamped below at -100, both
  programs form a = -(t · max (log p) (-100) + (1 - t) · max (log (1 - p)) (-100)); the kernel's summand is a · (1 + s), the
  reference's a · s + a. For finite t, p, s the number a is real, so the two summands agree by the distributive law
  (with an infinite a they need not, which is where the precondition is used). The kernel re-shapes each argument, in
  row-major order, to 100352 rows of 128 lanes, cuts the rows into 8 tiles of 12544, adds the 1568 slabs of 8 rows of
  each tile into an 8 × 128 array per tile, and finally adds the 8 · 8 · 128 partial sums from 0 and divides by 12845056;
  the reference adds all 12845056 summands from 0 and divides by the same literal. Sums of extended reals may be taken
  in any order and grouping, and the tiles, slabs, sublanes and lanes enumerate every element once.

  The frames of both kernel programs and the kernel's run are the generated ones; the reference's run and its stages
  read at an index are generated too. `preserves` has no conjunct: the idealized kernel is the kernel's own text.
-/
import proofs.«174479_j81389630259398_2_alg».proof.Defs
import proofs.«174479_j81389630259398_2_alg».proof.Proof.Gen.Kernel
import proofs.«174479_j81389630259398_2_alg».proof.Proof.Gen.Kernel.Skeleton
import proofs.«174479_j81389630259398_2_alg».proof.Proof.Gen.Kernel.Launch
import proofs.«174479_j81389630259398_2_alg».proof.Proof.Gen.Kernel.Points
import proofs.«174479_j81389630259398_2_alg».proof.Proof.Gen.Kernel.Frame
import proofs.«174479_j81389630259398_2_alg».proof.Proof.Gen.KernelIdeal
import proofs.«174479_j81389630259398_2_alg».proof.Proof.Gen.KernelIdeal.Skeleton
import proofs.«174479_j81389630259398_2_alg».proof.Proof.Gen.KernelIdeal.Launch
import proofs.«174479_j81389630259398_2_alg».proof.Proof.Gen.KernelIdeal.Points
import proofs.«174479_j81389630259398_2_alg».proof.Proof.Gen.KernelIdeal.Frame
import proofs.«174479_j81389630259398_2_alg».proof.Proof.Gen.ReferenceIdeal
import proofs.«174479_j81389630259398_2_alg».proof.Proof.Gen.Pre_finite_inputs
import proofs.«174479_j81389630259398_2_alg».proof.Proof.Gen.ReferenceIdeal.Run
import proofs.«174479_j81389630259398_2_alg».proof.Proof.Gen.ReferenceIdeal.Read
import proofs.«174479_j81389630259398_2_alg».proof.Proof.KernelRun
import proofs.«174479_j81389630259398_2_alg».proof.Proof.RefSide
import proofs.«174479_j81389630259398_2_alg».proof.Proof.Bridge
import proofs.«174479_j81389630259398_2_alg».proof.Proof.Finite
import Idealize.ShloMosaic.PureOps.Ideal.Laws
import Idealize.ShloMosaic.Adequacy
import Idealize.ShloMosaic.Init

open scoped BigOperators

noncomputable section

namespace Cert.Loss

open Idealize.ShloMosaic Idealize.ShloMosaic.TcCoe Idealize.SL.Sem

/-- The host's sum of all cells from the initial value 0. -/
theorem total_eq (P : Cert.KernelIdeal.S8x8x128.Idx → EReal) (i : Cert.KernelIdeal.S_.Idx) :
    Host.reduceAdd (F := Ideal) (φ := .f32) P (constant (F := Ideal) Cert.KernelIdeal.S_ .f32 0x00000000#32)
        Cert.KernelIdeal.Facts₀.reducesTo_S8x8x128_S_d0_1_2 Cert.KernelIdeal.Facts₀.h_S_ i
      = zero + ∑ j : Cert.KernelIdeal.S8x8x128.Idx, P j := by
  simp only [Host.reduceAdd, Ideal.hostReduceAdd_def]
  exact Ideal.hostReduceAdd_total Cert.KernelIdeal.Facts₀.reducesTo_S8x8x128_S_d0_1_2 (fun b => b.elim0) P _ i

/-- The operations after the region give the mean of the cells' total. -/
theorem tailOf_eq (P : Cert.KernelIdeal.S8x8x128.Idx → EReal) :
    tailOf P = fun _ => meanOf (∑ j : Cert.KernelIdeal.S8x8x128.Idx, P j) := by
  funext i
  show Ideal.div (Host.reduceAdd (F := Ideal) (φ := .f32) P (constant (F := Ideal) Cert.KernelIdeal.S_ .f32 0x00000000#32)
      Cert.KernelIdeal.Facts₀.reducesTo_S8x8x128_S_d0_1_2 Cert.KernelIdeal.Facts₀.h_S_ i) (Ideal.ofBits .f32 0x4B440000#32) = _
  rw [total_eq]
  rfl

end Cert.Loss

namespace Cert.Proof

open Idealize.ShloMosaic Idealize.ShloMosaic.TcCoe Idealize.SL.Sem Cert.Loss

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean of the reference's summands over every element of the arguments: the kernel's cells add
    the kernel's summands over every element once, and under the precondition every element is real, where the two
    summands agree. -/
theorem algebraic : Cert.algebraic_KernelIdeal_ReferenceIdeal := by
  intro m ρ m' ρ' hpre hagree
  refine ⟨fun c => fun _ => meanOf (∑ k : Cert.KernelIdeal.S64x1x448x448.Idx,
      termR (m ((c : Thread Cert.KernelIdeal.nD Cert.KernelIdeal.τ).loc Cert.KernelIdeal.main_arg0) k)
        (m ((c : Thread Cert.KernelIdeal.nD Cert.KernelIdeal.τ).loc Cert.KernelIdeal.main_arg1) k)
        (m ((c : Thread Cert.KernelIdeal.nD Cert.KernelIdeal.τ).loc Cert.KernelIdeal.main_arg2) k)), ?_, ?_⟩
  · refine (θ_run Cert.KernelIdeal.defs _ _).mono (fun r h c => ⟨(h c).1.trans ?_, (h c).2⟩) (Cert.Loss.kernel_run m ρ)
    obtain ⟨f0, f1, f2⟩ := real_of_pre _ _ _ (hpre c)
    rw [tailOf_eq, sum_cells_shapeCast, sum_termK_eq_sum_termR _ _ _ f0 f1 f2]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, ref_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
